-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4096 : Shape := ⟨3, ![8, 128, 4096]⟩
abbrev S_ : Shape := ⟨0, ![]⟩

class Facts : Prop where
  bcast_S_S8x128x4096 : S_.BroadcastsInDim S8x128x4096 (![] : Fin 0 → Fin S8x128x4096.rank)
  reducesTo_S8x128x4096_S_d0_1_2 : S8x128x4096.ReducesTo [0, 1, 2] S_
  h_S_ : 0 < S_.numel

variable [Facts]

def fn {F : FTy → Type} [FloatOps F] (main_arg0 : FVec F S8x128x4096 .f32) : IVec S_ 1 :=
  let main_v0 : FVec F S8x128x4096 .f32 := Host.absf main_arg0
  let main_cst : FVec F S_ .f32 := constant S_ .f32 0x7F800000#32
  let main_v1 : FVec F S8x128x4096 .f32 := broadcastInDim S8x128x4096 ![] bcast_S_S8x128x4096 main_cst
  let main_v2 : IVec S8x128x4096 1 := cmpf .olt main_v0 main_v1
  let main_c : IVec S_ 1 := constantI S_ 1 1#1
  let main_v3 : IVec S_ 1 := (fun x v => Host.reduce IntOp.andi x v reducesTo_S8x128x4096_S_d0_1_2 h_S_) main_v2 main_c
  main_v3
-- ==== Kernel.lean ====
abbrev S8x128x4096 : Shape := ⟨3, ![8, 128, 4096]⟩
abbrev S4x128x4096 : Shape := ⟨3, ![4, 128, 4096]⟩
abbrev S16x4096 : Shape := ⟨2, ![16, 4096]⟩
abbrev S_ : Shape := ⟨0, ![]⟩
abbrev S1x16x4096 : Shape := ⟨3, ![1, 16, 4096]⟩

abbrev nBuf : Table → Nat
  | .hbm => 2
  | .local .scVector .vmem => 1
  | _ => 0

abbrev bufTy : (tb : Table) → Fin (nBuf tb) → BufTy
  | .hbm, ⟨0, _⟩ => ⟨S8x128x4096, .f32⟩
  | .hbm, ⟨1, _⟩ => ⟨S4x128x4096, .f32⟩
  | .local .scVector .vmem, ⟨0, _⟩ => ⟨S16x4096, .f32⟩
  | _, _ => ⟨S8x128x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c2_i32_10 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v30 : BitVec 32 := Scalar.muli c2_i32_10 v18
  let c1_i32_11 : BitVec 32 := 1#32
  let v31 : BitVec 32 := Scalar.addi v30 c1_i32_11
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_12_r0 : BitVec 32 := 0#32
  ![v31.toNat, v29.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_12_r1 : BitVec 32 := 0#32
  ![v18.toNat, v29.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x16x4096_S16x4096 : S1x16x4096.Squeezes S16x4096
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x16x4096.size a ≤ S8x128x4096.size a
  k0_off2_inb : ∀ i : grid0.Coords, ∀ a, (k0_off2 i) a + S1x16x4096.size a ≤ S4x128x4096.size a

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S8x128x4096 : Shape := ⟨3, ![8, 128, 4096]⟩
abbrev S4 : Shape := ⟨1, ![4]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x128x4096 : Shape := ⟨3, ![4, 128, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8x128x4096, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i1⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4, .i32⟩
  | .hbm, ⟨9, _⟩ => ⟨S4x1, .i32⟩
  | .hbm, ⟨10, _⟩ => ⟨S1, .i32⟩
  | .hbm, ⟨11, _⟩ => ⟨S_, .i32⟩
  | .hbm, ⟨12, _⟩ => ⟨S4x1, .i32⟩
  | .hbm, ⟨13, _⟩ => ⟨S4x1, .i1⟩
  | .hbm, ⟨14, _⟩ => ⟨S1x1, .i32⟩
  | .hbm, ⟨15, _⟩ => ⟨S4x1, .i32⟩
  | .hbm, ⟨16, _⟩ => ⟨S4x1, .i1⟩
  | .hbm, ⟨17, _⟩ => ⟨S4x1, .i1⟩
  | .hbm, ⟨18, _⟩ => ⟨S_, .i1⟩
  | .hbm, ⟨19, _⟩ => ⟨S4, .i1⟩
  | .hbm, ⟨20, _⟩ => ⟨S4x128x4096, .f32⟩
  | .hbm, ⟨21, _⟩ => ⟨S4x128x4096, .i1⟩
  | .hbm, ⟨22, _⟩ => ⟨S_, .f32⟩
  | .hbm, ⟨23, _⟩ => ⟨S4x128x4096, .f32⟩
  | .hbm, ⟨24, _⟩ => ⟨S4x128x4096, .f32⟩
  | _, _ => ⟨S8x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  reducesTo_S4x1_S4_d1 : S4x1.ReducesTo [1] S4
  h_S_ : 0 < S_.numel
  bcast_S4_S4x128x4096_0 : S4.BroadcastsInDim S4x128x4096 (![0] : Fin 1 → Fin S4x128x4096.rank)
  bcast_S_S4x128x4096 : S_.BroadcastsInDim S4x128x4096 (![] : Fin 0 → Fin S4x128x4096.rank)
  gather_S8x128x4096_S4x1_S4x128x4096_12_0_n_n_0_1_11284096_wf : GatherDims.WF S8x128x4096 S4x1 S4x128x4096 [1, 2] [0] [] [0] [] 1 ![1, 128, 4096]

variable [Facts₀]

def gather_S8x128x4096_S4x1_S4x128x4096_12_0_n_n_0_1_11284096 : GatherDims S8x128x4096 S4x1 S4x128x4096 where
  offsetDims := [1, 2]
  collapsedSliceDims := [0]
  operandBatchingDims := []
  startIndicesBatchingDims := []
  startIndexMap := [0]
  indexVectorDim := 1
  sliceSizes := ![1, 128, 4096]
  wf := gather_S8x128x4096_S4x1_S4x128x4096_12_0_n_n_0_1_11284096_wf

class Facts : Prop extends Facts₀ where

variable [Facts]
-- ==== Proof.Pick.lean ====
/-
  The function both programs compute, as ONE map of indices.

  The input is an array of 8 slabs, each 128 rows of 4096 lanes; the result has 4 slabs of the same
  size. Slab `l` of the result is slab `2 l + 1` of the input (the odd slabs, in order), row for row and
  lane for lane. So the result at index `(l, r, h)` is the input at `(2 l + 1, r, h)`: `up` is that map
  of indices, and `pick x` is the input `x` read through it. No arithmetic is done on the elements, so
  the statement is the same at every type of element.
-/
import Idealize.ShloMosaic.Lib.ValueIdx

namespace Cert.Proof.Pick

open Idealize.ShloMosaic Idealize.ShloMosaic.ValueIdx

/-- The shapes, as literals: the input's and the result's. -/
abbrev SIn : Shape := ⟨3, ![8, 128, 4096]⟩
abbrev SOut : Shape := ⟨3, ![4, 128, 4096]⟩

/-- A result index's slab number is below 4, its row below 128, its lane below 4096. -/
theorem out_lt0 (j : SOut.Idx) : (j 0).val < 4 := (j 0).isLt
theorem out_lt1 (j : SOut.Idx) : (j 1).val < 128 := (j 1).isLt
theorem out_lt2 (j : SOut.Idx) : (j 2).val < 4096 := (j 2).isLt

/-- Where the result's element `(l, r, h)` comes from: `(2 l + 1, r, h)`. -/
def up (j : SOut.Idx) : SIn.Idx :=
  ix3 (⟨2 * (j 0).val + 1, by have := out_lt0 j; omega⟩ : Fin 8) (j 1) (j 2)

@[simp] theorem up_val0 (j : SOut.Idx) : ((up j) 0).val = 2 * (j 0).val + 1 := rfl
@[simp] theorem up_val1 (j : SOut.Idx) : ((up j) 1).val = (j 1).val := rfl
@[simp] theorem up_val2 (j : SOut.Idx) : ((up j) 2).val = (j 2).val := rfl

/-- An input index is `up j` as soon as its three coordinates are `2 l + 1`, `r`, `h`. -/
theorem eq_up {i : SIn.Idx} {j : SOut.Idx} (h0 : (i 0).val = 2 * (j 0).val + 1) (h1 : (i 1).val = (j 1).val)
    (h2 : (i 2).val = (j 2).val) : i = up j := by
  funext a
  match a with
  | ⟨0, _⟩ => exact Fin.ext h0
  | ⟨1, _⟩ => exact Fin.ext h1
  | ⟨2, _⟩ => exact Fin.ext h2

/-- The odd slabs of `x`, in order. -/
def pick {α : Type} (x : SIn.Idx → α) : SOut.Idx → α := fun j => x (up j)

@[simp] theorem pick_apply {α : Type} (x : SIn.Idx → α) (j : SOut.Idx) : pick x j = x (up j) := rfl

end Cert.Proof.Pick
-- ==== Proof.KernelRun.lean ====
/-
  The run of the copy kernel, and what it leaves in the result array.

  The program: thirty-two workers (two cores of sixteen each) run the same body at once. Worker `(c, s)` has
  number `w = 2 s + c`; it takes slab `2 (w / 8) + 1` of the input, rows `16 (w % 8)` to `16 (w % 8) + 15`,
  copies that block of sixteen rows into a buffer of its own, waits for the copy, copies the buffer to the
  same rows of slab `w / 8` of the result, and waits again. Each copy has a counter of its own, so a wait can
  only be answered by the copy it follows.

  Why every execution ends well. No worker ever writes the input, so a block being read is never changed
  under the reader. Two different workers write different blocks of the result (they differ in the slab or in
  the sixteen rows), and a worker's buffer is its own, so no two writes meet. Nothing a worker waits for
  depends on another worker: each wait follows the one copy that answers it.

  What the result holds. Worker `w` leaves rows `16 (w % 8) ..` of slab `w / 8` equal to the same rows of slab
  `2 (w / 8) + 1` of the input. As `w` runs over `0 .. 31`, the pair `(w / 8, w % 8)` runs over all of
  `4 × 8`, so the blocks tile the result, and on each the result is the input read through
  `(l, r, h) ↦ (2 l + 1, r, h)`: the result is `Pick.pick` of the input, and the input is unchanged.
-/
import Idealize.ShloMosaic.Lib.SparseCore.Launch
import Idealize.ShloMosaic.Lib.StableHlo.Run
import Idealize.ShloMosaic.Lib.Pipeline.Kit
import Idealize.ShloMosaic.Lib.Tactic
import proofs.«216419_g87780541595922_cont_sun_m_949_14_alg».proof.Proof.Gen.Kernel
import proofs.«216419_g87780541595922_cont_sun_m_949_14_alg».proof.Proof.Gen.Kernel.Skeleton
import proofs.«216419_g87780541595922_cont_sun_m_949_14_alg».proof.Proof.Pick

noncomputable section

namespace Cert.Proof.KernelRun

open Cert.Kernel Cert.Kernel.Gen
open Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, a worker's blocks -/

variable (m : (ℓ : Loc nD τ sig) → Buf (Elt F) ℓ) (ρ : Dev nD → PrngReg)

/-- The input and the result, as locations of device `d`. -/
abbrev xLoc (d : Dev nD) : Loc nD τ sig := (SparseCore.T d).loc main_arg0
abbrev oLoc (d : Dev nD) : Loc nD τ sig := (SparseCore.T d).loc main_v0

local notation "xV" => (Memref.whole Cert.Kernel.main_arg0_scv : Memref Cert.Kernel.sig Kind.scVector Space.hbm Cert.Kernel.S8x128x4096 EltTy.f32)
local notation "oV" => (Memref.whole Cert.Kernel.main_v0_scv : Memref Cert.Kernel.sig Kind.scVector Space.hbm Cert.Kernel.S4x128x4096 EltTy.f32)
local notation "sV" => (Memref.whole Cert.Kernel.cc0_scratch0 : Memref Cert.Kernel.sig Kind.scVector Space.vmem Cert.Kernel.S16x4096 EltTy.f32)

/-- The block worker `L` reads (sixteen rows of an odd slab of the input) and the block it writes (the same rows of
    a slab of the result), as rectangles and as the sixteen-row views the body copies through. -/
abbrev xRect (L : grid0.Coords) : Rect S8x128x4096 := Rect.unit (s := S8x128x4096) (k0_off1 L) S1x16x4096.size (k0_off1_inb L)
abbrev oRect (L : grid0.Coords) : Rect S4x128x4096 := Rect.unit (s := S4x128x4096) (k0_off2 L) S1x16x4096.size (k0_off2_inb L)
abbrev xRowK (L : grid0.Coords) : Memref sig .scVector .hbm S16x4096 .f32 :=
  ((xV).slice (xRect L) (fun _ => rfl)).squeeze S16x4096 squeezes_S1x16x4096_S16x4096
abbrev oRowK (L : grid0.Coords) : Memref sig .scVector .hbm S16x4096 .f32 :=
  ((oV).slice (oRect L) (fun _ => rfl)).squeeze S16x4096 squeezes_S1x16x4096_S16x4096
abbrev xSet (L : grid0.Coords) : Finset S8x128x4096.Idx := (xRowK L).view.set
abbrev oSet (L : grid0.Coords) : Finset S4x128x4096.Idx := (oRowK L).view.set

variable [FloatOps F]

/-- What the result array must hold at the end: the odd slabs of the input's launch contents. -/
def want (d : Dev nD) : Buf (Elt F) (oLoc d) := fun j => m (xLoc d) (Pick.up j)

abbrev xPiece (d : Dev nD) (L : grid0.Coords) : sProp 𝕄 := xLoc d ↦[xSet L]{fullShare} m (xLoc d)
abbrev oPiece (d : Dev nD) (L : grid0.Coords) (f : Buf (Elt F) (oLoc d)) : sProp 𝕄 := oLoc d ↦[oSet L]{fullShare} f

/-! ## The blocks' offsets, decided over the thirty-two workers

The body computes a worker's two offsets from its coordinates by the same integer chain. Three facts about them
are all the rest needs: how the read offset sits against the write offset; that two workers' write offsets are apart
in the slab or by sixteen rows; that every slab and every group of sixteen rows is some worker's. -/

def coordsV (c : Fin (grid0.bound 0)) (s : Fin (grid0.bound 1)) : grid0.Coords :=
  fun | 0 => c | 1 => s | ⟨_ + 2, h⟩ => absurd h (Nat.not_lt.2 (Nat.le_add_left _ _))

abbrev LT (c : Fin 2) (i : Fin 16) : grid0.Coords := coordsV c i

set_option Elab.async false

/-- The block read is in slab `2 l + 1` where the block written is in slab `l`, at the same rows and lanes. -/
theorem off_rel : ∀ L : grid0.Coords,
    k0_off1 L 0 = 2 * k0_off2 L 0 + 1 ∧ k0_off1 L 1 = k0_off2 L 1 ∧ k0_off1 L 2 = k0_off2 L 2 := by decide +kernel

/-- Two different workers write blocks in different slabs, or sixteen rows apart. -/
theorem off2_sep : ∀ c c' : Fin 2, ∀ i i' : Fin 16, (c ≠ c' ∨ i ≠ i') →
    ((k0_off2 (LT c i) 0 + 1 ≤ k0_off2 (LT c' i') 0 ∨ k0_off2 (LT c' i') 0 + 1 ≤ k0_off2 (LT c i) 0) ∨
     (k0_off2 (LT c i) 1 + 16 ≤ k0_off2 (LT c' i') 1 ∨ k0_off2 (LT c' i') 1 + 16 ≤ k0_off2 (LT c i) 1)) := by decide +kernel

/-- Every slab `l` and every group `k` of sixteen rows is written by some worker, from lane 0. -/
theorem off2_onto : ∀ l : Fin 4, ∀ k : Fin 8, ∃ c : Fin 2, ∃ i : Fin 16,
    k0_off2 (LT c i) 0 = l.val ∧ k0_off2 (LT c i) 1 = 16 * k.val ∧ k0_off2 (LT c i) 2 = 0 := by decide +kernel

omit [FloatOps F] in
theorem xSet_eq (L : grid0.Coords) : xSet L = (xRect L).set := by
  show (((View.whole (main_arg0_scv : Ref sig .scVector)).slice (xRect L)).reshape S16x4096 squeezes_S1x16x4096_S16x4096.numel_eq).set = _
  rw [View.set_reshape, View.set_slice]; exact Finset.map_refl
omit [FloatOps F] in
theorem oSet_eq (L : grid0.Coords) : oSet L = (oRect L).set := by
  show (((View.whole (main_v0_scv : Ref sig .scVector)).slice (oRect L)).reshape S16x4096 squeezes_S1x16x4096_S16x4096.numel_eq).set = _
  rw [View.set_reshape, View.set_slice]; exact Finset.map_refl

/-- Different workers write disjoint blocks of the result, -/
theorem oSet_disjoint (c c' : Fin 2) (i i' : Fin 16) (h : c ≠ c' ∨ i ≠ i') : Disjoint (oSet (LT c i)) (oSet (LT c' i')) := by
  rw [oSet_eq, oSet_eq]
  rcases off2_sep c c' i i' h with h0 | h1
  · exact Rect.unit_disjoint 0 h0
  · exact Rect.unit_disjoint 1 h1

/-- and read disjoint blocks of the input. -/
theorem xSet_disjoint (c c' : Fin 2) (i i' : Fin 16) (h : c ≠ c' ∨ i ≠ i') : Disjoint (xSet (LT c i)) (xSet (LT c' i')) := by
  rw [xSet_eq, xSet_eq]
  obtain ⟨a0, a1, -⟩ := off_rel (LT c i)
  obtain ⟨b0, b1, -⟩ := off_rel (LT c' i')
  rcases off2_sep c c' i i' h with h0 | h1
  · exact Rect.unit_disjoint 0 (show k0_off1 (LT c i) 0 + 1 ≤ k0_off1 (LT c' i') 0 ∨ k0_off1 (LT c' i') 0 + 1 ≤ k0_off1 (LT c i) 0 by omega)
  · exact Rect.unit_disjoint 1 (show k0_off1 (LT c i) 1 + 16 ≤ k0_off1 (LT c' i') 1 ∨ k0_off1 (LT c' i') 1 + 16 ≤ k0_off1 (LT c i) 1 by omega)

/-- What one core's sixteen workers read, and write. -/
def xCore (c : Fin 2) : Finset S8x128x4096.Idx := Finset.univ.biUnion fun i : Fin 16 => xSet (LT c i)
def oCore (c : Fin 2) : Finset S4x128x4096.Idx := Finset.univ.biUnion fun i : Fin 16 => oSet (LT c i)

theorem xTile_disjoint (c : Fin 2) : ∀ i ∈ (Finset.univ : Finset (Fin 16)), ∀ j ∈ (Finset.univ : Finset (Fin 16)), i ≠ j →
    Disjoint (xSet (LT c i)) (xSet (LT c j)) := fun i _ j _ h => xSet_disjoint c c i j (.inr h)
theorem oTile_disjoint (c : Fin 2) : ∀ i ∈ (Finset.univ : Finset (Fin 16)), ∀ j ∈ (Finset.univ : Finset (Fin 16)), i ≠ j →
    Disjoint (oSet (LT c i)) (oSet (LT c j)) := fun i _ j _ h => oSet_disjoint c c i j (.inr h)

theorem xCore_disjoint : ∀ c ∈ (Finset.univ : Finset (Fin 2)), ∀ c' ∈ (Finset.univ : Finset (Fin 2)), c ≠ c' → Disjoint (xCore c) (xCore c') := by
  intro c _ c' _ h
  unfold xCore
  rw [Finset.disjoint_biUnion_left]; intro i _
  rw [Finset.disjoint_biUnion_right]; intro i' _
  exact xSet_disjoint c c' i i' (.inl h)
theorem oCore_disjoint : ∀ c ∈ (Finset.univ : Finset (Fin 2)), ∀ c' ∈ (Finset.univ : Finset (Fin 2)), c ≠ c' → Disjoint (oCore c) (oCore c') := by
  intro c _ c' _ h
  unfold oCore
  rw [Finset.disjoint_biUnion_left]; intro i _
  rw [Finset.disjoint_biUnion_right]; intro i' _
  exact oSet_disjoint c c' i i' (.inl h)

/-- The blocks written tile the result: element `(l, r, h)` is in the block of the worker for slab `l`, rows `16 (r / 16) ..`. -/
theorem oCore_cover : (Finset.univ : Finset (Fin 2)).biUnion oCore = Finset.univ := by
  ext x
  simp only [Finset.mem_biUnion, Finset.mem_univ, true_and, iff_true, oCore]
  have x0 := Pick.out_lt0 x
  have x1 := Pick.out_lt1 x
  have x2 := Pick.out_lt2 x
  obtain ⟨c, i, h0, h1, h2⟩ := off2_onto ⟨(x 0).val, x0⟩ ⟨(x 1).val / 16, by omega⟩
  refine ⟨c, i, ?_⟩
  rw [oSet_eq, Rect.mem_set_unit]
  intro a
  match a with
  | ⟨0, _⟩ =>
    show k0_off2 (LT c i) 0 ≤ (x 0).val ∧ (x 0).val < k0_off2 (LT c i) 0 + 1
    simp only at h0; omega
  | ⟨1, _⟩ =>
    show k0_off2 (LT c i) 1 ≤ (x 1).val ∧ (x 1).val < k0_off2 (LT c i) 1 + 16
    simp only at h1; omega
  | ⟨2, _⟩ =>
    show k0_off2 (LT c i) 2 ≤ (x 2).val ∧ (x 2).val < k0_off2 (LT c i) 2 + 4096
    omega

/-! ## What the handshakes carry

The call hands each core the elements its sixteen workers read and write, each worker its own two blocks; back come the
same, the blocks of the result now at the odd slabs of the input. Nothing else is dealt: the copies' counters need no
ghost state of their own. -/

def P : (K (F := F)).Pay (nD := nD) (Val := Elt F) (Name := ℕ) (U := UU) where
  st := fun q d c => match q with
    | 0 => iprop((xLoc d ↦[xCore (Fin.cast nCore_zero c)]{fullShare} m (xLoc d)) ∗ oLoc d ↦[oCore (Fin.cast nCore_zero c)]{fullShare} m (oLoc d))
  dn := fun q d c => match q with
    | 0 => iprop((xLoc d ↦[xCore (Fin.cast nCore_zero c)]{fullShare} m (xLoc d)) ∗ oLoc d ↦[oCore (Fin.cast nCore_zero c)]{fullShare} want m d)
  go := fun q d c i => match q with
    | 0 => iprop(xPiece m d (LT (Fin.cast nCore_zero c) (Fin.cast nSub_zero i)) ∗ oPiece d (LT (Fin.cast nCore_zero c) (Fin.cast nSub_zero i)) (m (oLoc d)))
  td := fun q d c i => match q with
    | 0 => iprop(xPiece m d (LT (Fin.cast nCore_zero c) (Fin.cast nSub_zero i)) ∗ oPiece d (LT (Fin.cast nCore_zero c) (Fin.cast nSub_zero i)) (want m d))
  x := fun _ _ => iprop(emp)

instance P_storable : (P (F := F) m).IsStorable where
  st q d c := match q with
    | 0 => (inferInstance : BI.Storable (upEmb : UEmb _ 𝕄)
        iprop((xLoc d ↦[xCore (Fin.cast nCore_zero c)]{fullShare} m (xLoc d)) ∗ oLoc d ↦[oCore (Fin.cast nCore_zero c)]{fullShare} m (oLoc d)))
  dn q d c := match q with
    | 0 => (inferInstance : BI.Storable (upEmb : UEmb _ 𝕄)
        iprop((xLoc d ↦[xCore (Fin.cast nCore_zero c)]{fullShare} m (xLoc d)) ∗ oLoc d ↦[oCore (Fin.cast nCore_zero c)]{fullShare} want m d))
  go q d c i := match q with
    | 0 => (inferInstance : BI.Storable (upEmb : UEmb _ 𝕄)
        iprop(xPiece m d (LT (Fin.cast nCore_zero c) (Fin.cast nSub_zero i)) ∗ oPiece d (LT (Fin.cast nCore_zero c) (Fin.cast nSub_zero i)) (m (oLoc d))))
  td q d c i := match q with
    | 0 => (inferInstance : BI.Storable (upEmb : UEmb _ 𝕄)
        iprop(xPiece m d (LT (Fin.cast nCore_zero c) (Fin.cast nSub_zero i)) ∗ oPiece d (LT (Fin.cast nCore_zero c) (Fin.cast nSub_zero i)) (want m d)))

/-! ## A worker's body -/

section Tile

variable (d : Dev nD) (L : grid0.Coords)

abbrev cV (L : grid0.Coords) : Fin τ.nSC := (L 0).castLE hcore0
abbrev jV (L : grid0.Coords) : Fin τ.nSub := (L 1).castLE hsub0

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The worker's buffer is among the subcore's own: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_xRowK (f : Buf (Elt F) (xLoc d)) :
    ((xRowK L).view.loc (V d (cV L) (jV L)) ↦[(xRowK L).view.set]{fullShare} f : sProp 𝕄) = xLoc d ↦[xSet L]{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oSet L]{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

omit [FloatOps F] in
/-- Element `y` of the block read sits, in the input, where `up` sends element `y` of the block written: both are the
    block's offset plus `y`'s place in it, the squeezed leading axis holding the one coordinate 0. -/
theorem emb_up (y : S16x4096.Idx) : (xRowK L).view.emb y = Pick.up ((oRowK L).view.emb y) := by
  obtain ⟨z, hx, ho⟩ : ∃ z : S1x16x4096.Idx,
      (∀ a, (((xRowK L).view.emb y) a : Nat) = k0_off1 L a + 1 * (z a : Nat)) ∧
      (∀ a, (((oRowK L).view.emb y) a : Nat) = k0_off2 L a + 1 * (z a : Nat)) :=
    ⟨Shape.reshapeEquiv squeezes_S1x16x4096_S16x4096.numel_eq y, fun _ => rfl, fun _ => rfl⟩
  obtain ⟨r0, r1, r2⟩ := off_rel L
  have z0 : (z 0 : Nat) = 0 := Nat.lt_one_iff.mp (z 0).isLt
  have hx0 := hx 0; have hx1 := hx 1; have hx2 := hx 2
  have ho0 := ho 0; have ho1 := ho 1; have ho2 := ho 2
  refine Pick.eq_up ?_ ?_ ?_
  · omega
  · omega
  · omega

omit [FloatOps F] in
/-- What the second copy carries is the block of the input the first one fetched. -/
theorem payload_eq (fs : Buf (Elt F) ((V d (cV L) (jV L)).loc cc0_scratch0)) (w0 w1 : S16x4096.Idx → Elt F EltTy.f32)
    (h0 : w0 = (xRowK L).view.read (Elt F) (m (xLoc d)))
    (h1 : w1 = (sV).view.read (Elt F) (View.write (Elt F) (sV).view fs w0 Finset.univ)) :
    ∀ y, w1 y = m (xLoc d) ((xRowK L).view.emb y) := by
  subst h1; subst h0
  intro y
  rw [View.read_write_univ, View.read_apply]
  rfl

omit [FloatOps F] in
/-- An element of the result between the block's bounds is the block's element at "index minus offset". -/
theorem emb_of_bounds (x : S4x128x4096.Idx)
    (hx : ∀ a, k0_off2 L a ≤ (x a : Nat) ∧ (x a : Nat) < k0_off2 L a + S1x16x4096.size a) :
    ∃ y : S16x4096.Idx, (oRowK L).view.emb y = x := by
  let z : S1x16x4096.Idx := fun a => ⟨(x a : Nat) - k0_off2 L a, by have := hx a; omega⟩
  refine ⟨(Shape.reshapeEquiv squeezes_S1x16x4096_S16x4096.numel_eq).symm z, ?_⟩
  funext a
  apply Fin.ext
  show k0_off2 L a + 1 * ((Shape.reshapeEquiv squeezes_S1x16x4096_S16x4096.numel_eq
    ((Shape.reshapeEquiv squeezes_S1x16x4096_S16x4096.numel_eq).symm z)) a : Nat) = (x a : Nat)
  rw [Equiv.apply_symm_apply]
  show k0_off2 L a + 1 * ((x a : Nat) - k0_off2 L a) = (x a : Nat)
  have := hx a; omega

omit [FloatOps F] in
/-- So on the block it writes, the worker leaves the odd slabs of the input. -/
theorem block_eq (fo : Buf (Elt F) (oLoc d)) (w : S16x4096.Idx → Elt F EltTy.f32)
    (hw : ∀ y, w y = m (xLoc d) ((xRowK L).view.emb y)) (x : S4x128x4096.Idx)
    (hx : ∀ a, k0_off2 L a ≤ (x a : Nat) ∧ (x a : Nat) < k0_off2 L a + S1x16x4096.size a) :
    (oRowK L).view.writes (Elt F) fo [⟨Rect.whole S16x4096, w⟩] x = want m d x := by
  obtain ⟨y, rfl⟩ := emb_of_bounds L x hx
  -- the element under the one write reads back the payload,
  have h1 : (oRowK L).view.read (Elt F) ((oRowK L).view.writes (Elt F) fo [⟨Rect.whole S16x4096, w⟩]) y = w y := by
    have h := View.read_writes_cons_emb (oRowK L).view fo (Rect.whole S16x4096) w [] y
    rwa [Rect.emb_whole_apply] at h
  -- and reading through the view is the array at the element's place.
  generalize (oRowK L).view.writes (Elt F) fo [⟨Rect.whole S16x4096, w⟩] = g at h1 ⊢
  have h2 : g ((oRowK L).view.emb y) = (oRowK L).view.read (Elt F) g y :=
    ((View.read_apply (v := (oRowK L).view) g y).trans (cast_eq _ _)).symm
  exact h2.trans (h1.trans ((hw y).trans (congrArg (m (xLoc d)) (emb_up L y))))

omit [FloatOps F] in
/-- The block's elements are those between its bounds. -/
theorem bounds_of_mem (x : S4x128x4096.Idx) (hx : x ∈ oSet L) :
    ∀ a, k0_off2 L a ≤ (x a : Nat) ∧ (x a : Nat) < k0_off2 L a + S1x16x4096.size a := by
  rw [oSet_eq, Rect.mem_set_unit] at hx
  exact hx

set_option maxHeartbeats 4000000 in
/-- The body on worker `L` of device `d`: the fetch of its block of the input and its wait, the write-out to its block of
    the result and its wait. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xPiece m d L ∗ oPiece d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_body L xV (Memref.isWhole_whole _) oV (Memref.isWhole_whole _) sV (Memref.isWhole_whole _) cc0_scoped0 cc0_scoped1)
          fun _ => iprop((xPiece m d L ∗ oPiece d L (want m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_body_eq_skeleton]; unfold cc0__copy_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowK (F := F) d L _).symm) $$ Hx
  ihave Ho' := (Entails.of_eq (pts_oRowK (F := F) d L _).symm) $$ Ho
  ihave Hs' := (Entails.of_eq (pts_sV (F := F) d L _).symm) $$ Hs
  sl_exec
  sl_step
  isplitl [Hx' Ho']
  · isplitl [Hx']; · iapply (Entails.of_eq (pts_xRowK (F := F) d L _)); iexact Hx'
    iapply (Entails.of_eq ((pts_oRowK (F := F) d L _).trans
      (pointsTo_congr fun x hx => block_eq m d L _ _ (payload_eq m d L fs _ _ rfl rfl) x (bounds_of_mem L x hx)))); iexact Ho'
  isplitl [Hs' Hbufs]
  · isplitl [Hs']; · iexists _; iexact Hs'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-! ## The launch theorem's obligation for a worker -/

theorem defs₀_vector (c : Fin τ.nSC) (s : Fin τ.nSub) :
    defs₀ (F := F) (.scVector c s) 0 ()
      = SparseCore.onTile hcore0 hsub0 (fun c s => cc0__copy_body (coordsV c s)
          xV (Memref.isWhole_whole _) oV (Memref.isWhole_whole _) sV (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## A core's elements split among its workers, and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show iprop((xLoc d ↦[xCore (Fin.cast nCore_zero c)]{fullShare} m (xLoc d)) ∗ oLoc d ↦[oCore (Fin.cast nCore_zero c)]{fullShare} m (oLoc d))
    ⊢ |={Set.univ}=> iprop(
      (bigSep Finset.univ fun i : Fin ((K (F := F)).nSub 0) =>
        iprop(xPiece m d (LT (Fin.cast nCore_zero c) (Fin.cast nSub_zero i)) ∗ oPiece d (LT (Fin.cast nCore_zero c) (Fin.cast nSub_zero i)) (m (oLoc d))))
      ∗ ((bigSep Finset.univ fun i : Fin ((K (F := F)).nSub 0) =>
          iprop(xPiece m d (LT (Fin.cast nCore_zero c) (Fin.cast nSub_zero i)) ∗ oPiece d (LT (Fin.cast nCore_zero c) (Fin.cast nSub_zero i)) (want m d)))
          -∗ iprop((xLoc d ↦[xCore (Fin.cast nCore_zero c)]{fullShare} m (xLoc d)) ∗ oLoc d ↦[oCore (Fin.cast nCore_zero c)]{fullShare} want m d)))
  rw [bigSep_tasks (F := F) (fun i => iprop(xPiece m d (LT (Fin.cast nCore_zero c) i) ∗ oPiece d (LT (Fin.cast nCore_zero c) i) (m (oLoc d)))),
    bigSep_tasks (F := F) (fun i => iprop(xPiece m d (LT (Fin.cast nCore_zero c) i) ∗ oPiece d (LT (Fin.cast nCore_zero c) i) (want m d))),
    bigSep_sep', bigSep_sep']
  unfold xCore oCore xPiece oPiece
  rw [pointsTo_biUnion Finset.univ (ℓ := xLoc d) _ (xTile_disjoint (Fin.cast nCore_zero c)),
    pointsTo_biUnion Finset.univ (ℓ := oLoc d) (f := m (oLoc d)) _ (oTile_disjoint (Fin.cast nCore_zero c)),
    pointsTo_biUnion Finset.univ (ℓ := oLoc d) (f := want m d) _ (oTile_disjoint (Fin.cast nCore_zero c))]
  iintro ⟨Hx, Ho⟩; imodintro
  isplitl [Hx Ho]
  · isplitl [Hx]; · iexact Hx
    iexact Ho
  iintro ⟨Hx, Ho⟩
  isplitl [Hx]; · iexact Hx
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The input's elements no worker reads (the even slabs): they never leave the TensorCore's hands. -/
def xRest : Finset S8x128x4096.Idx := Finset.univ \ (Finset.univ : Finset (Fin 2)).biUnion xCore

omit [FloatOps F] in
/-- The whole input is the cores' parts and the rest; -/
theorem xWhole (d : Dev nD) (f : Buf (Elt F) (xLoc d)) :
    (xLoc d ↦{fullShare} f : sProp 𝕄) ⊣⊢ iprop((bigSep Finset.univ fun c : Fin 2 => xLoc d ↦[xCore c]{fullShare} f) ∗ xLoc d ↦[xRest]{fullShare} f) := by
  rw [← pointsTo_biUnion Finset.univ (ℓ := xLoc d) xCore xCore_disjoint]
  exact pointsTo_split_subset (Finset.subset_univ _)

omit [FloatOps F] in
/-- the whole result is the cores' parts. -/
theorem oWhole (d : Dev nD) (f : Buf (Elt F) (oLoc d)) :
    (oLoc d ↦{fullShare} f : sProp 𝕄) = bigSep Finset.univ fun c : Fin 2 => oLoc d ↦[oCore c]{fullShare} f := by
  rw [← pointsTo_biUnion Finset.univ (ℓ := oLoc d) oCore oCore_disjoint, oCore_cover]

theorem st0_eq (d : Dev nD) : (bigSep Finset.univ fun c : Fin ((K (F := F)).nCore 0) => (P m).st 0 d c)
    = iprop((bigSep Finset.univ fun c : Fin 2 => xLoc d ↦[xCore c]{fullShare} m (xLoc d)) ∗ bigSep Finset.univ fun c : Fin 2 => oLoc d ↦[oCore c]{fullShare} m (oLoc d)) := by
  rw [← bigSep_sep']
  exact bigSep_cores (F := F) (fun c => iprop((xLoc d ↦[xCore c]{fullShare} m (xLoc d)) ∗ oLoc d ↦[oCore c]{fullShare} m (oLoc d)))
theorem dn0_eq (d : Dev nD) : (bigSep Finset.univ fun c : Fin ((K (F := F)).nCore 0) => (P m).dn 0 d c)
    = iprop((bigSep Finset.univ fun c : Fin 2 => xLoc d ↦[xCore c]{fullShare} m (xLoc d)) ∗ bigSep Finset.univ fun c : Fin 2 => oLoc d ↦[oCore c]{fullShare} want m d) := by
  rw [← bigSep_sep']
  exact bigSep_cores (F := F) (fun c => iprop((xLoc d ↦[xCore c]{fullShare} m (xLoc d)) ∗ oLoc d ↦[oCore c]{fullShare} want m d))

/-- What @main leaves the claim: the input at its launch contents, the result at the odd slabs of it. -/
abbrev FIN (d : Dev nD) : sProp 𝕄 := iprop((xLoc d ↦{fullShare} m (xLoc d)) ∗ oLoc d ↦{fullShare} want m d)

/-- @main on device `d`'s TensorCore: the one call, the two arrays cut into the cores' parts and joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  ihave Hx2 := (xWhole (F := F) d _).1 $$ Hx
  icases Hx2 with ⟨Hxc, Hxr⟩
  ihave Ho2 := (Entails.of_eq (oWhole (F := F) d _)) $$ Ho
  iapply ((K (F := F)).wp_run (D (F := F)) 𝒱 (EH := EH) (P := P m) κ d 0) $$ [Hst Hxc Ho2 Hxr]
  isplitr; · iexact Hctx
  isplitl [Hst]; · iexact Hst
  isplitl [Hxc Ho2]
  · rw [st0_eq]
    isplitl [Hxc]; · iexact Hxc
    iexact Ho2
  iintro ⟨Hst, Hdn⟩
  ihave Hdn' := (Entails.of_eq (dn0_eq m d)) $$ Hdn
  icases Hdn' with ⟨Hxc, Hoc⟩
  ihave Hx := (xWhole (F := F) d _).2 $$ [Hxc Hxr]
  · isplitl [Hxc]; · iexact Hxc
    iexact Hxr
  ihave Ho := (Entails.of_eq (oWhole (F := F) d _).symm) $$ Hoc
  imodintro
  isplitl [Hst]; · iexact Hst
  isplitl [Hx]; · iexact Hx
  iexact Ho

def fq (d : Dev nD) (s' : Phys nD τ sig (Elt F)) : Prop := s'.mem.mem (xLoc d) = m (xLoc d) ∧ s'.mem.mem (oLoc d) = want m d

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := want m d)) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (xLoc c) = m (xLoc c) ∧ r.2.mem (oLoc c) = want m c

/-- From any memory with zero counters, at any float values: every weakly fair execution of the device's threads
    terminates, nothing faulting, with the input unchanged and the result at the odd slabs of the input. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelRun

end
-- ==== Proof.KernelIdealRun.lean ====
/-
  The run of the copy kernel, and what it leaves in the result array.

  The program: thirty-two workers (two cores of sixteen each) run the same body at once. Worker `(c, s)` has
  number `w = 2 s + c`; it takes slab `2 (w / 8) + 1` of the input, rows `16 (w % 8)` to `16 (w % 8) + 15`,
  copies that block of sixteen rows into a buffer of its own, waits for the copy, copies the buffer to the
  same rows of slab `w / 8` of the result, and waits again. Each copy has a counter of its own, so a wait can
  only be answered by the copy it follows.

  Why every execution ends well. No worker ever writes the input, so a block being read is never changed
  under the reader. Two different workers write different blocks of the result (they differ in the slab or in
  the sixteen rows), and a worker's buffer is its own, so no two writes meet. Nothing a worker waits for
  depends on another worker: each wait follows the one copy that answers it.

  What the result holds. Worker `w` leaves rows `16 (w % 8) ..` of slab `w / 8` equal to the same rows of slab
  `2 (w / 8) + 1` of the input. As `w` runs over `0 .. 31`, the pair `(w / 8, w % 8)` runs over all of
  `4 × 8`, so the blocks tile the result, and on each the result is the input read through
  `(l, r, h) ↦ (2 l + 1, r, h)`: the result is `Pick.pick` of the input, and the input is unchanged.
-/
import Idealize.ShloMosaic.Lib.SparseCore.Launch
import Idealize.ShloMosaic.Lib.StableHlo.Run
import Idealize.ShloMosaic.Lib.Pipeline.Kit
import Idealize.ShloMosaic.Lib.Tactic
import proofs.«216419_g87780541595922_cont_sun_m_949_14_alg».proof.Proof.Gen.KernelIdeal
import proofs.«216419_g87780541595922_cont_sun_m_949_14_alg».proof.Proof.Gen.KernelIdeal.Skeleton
import proofs.«216419_g87780541595922_cont_sun_m_949_14_alg».proof.Proof.Pick

noncomputable section

namespace Cert.Proof.KernelIdealRun

open Cert.KernelIdeal Cert.KernelIdeal.Gen
open Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, a worker's blocks -/

variable (m : (ℓ : Loc nD τ sig) → Buf (Elt F) ℓ) (ρ : Dev nD → PrngReg)

/-- The input and the result, as locations of device `d`. -/
abbrev xLoc (d : Dev nD) : Loc nD τ sig := (SparseCore.T d).loc main_arg0
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S8x128x4096 EltTy.f32)
local notation "oV" => (Memref.whole Cert.KernelIdeal.main_v0_scv : Memref Cert.KernelIdeal.sig Kind.scVector Space.hbm Cert.KernelIdeal.S4x128x4096 EltTy.f32)
local notation "sV" => (Memref.whole Cert.KernelIdeal.cc0_scratch0 : Memref Cert.KernelIdeal.sig Kind.scVector Space.vmem Cert.KernelIdeal.S16x4096 EltTy.f32)

/-- The block worker `L` reads (sixteen rows of an odd slab of the input) and the block it writes (the same rows of
    a slab of the result), as rectangles and as the sixteen-row views the body copies through. -/
abbrev xRect (L : grid0.Coords) : Rect S8x128x4096 := Rect.unit (s := S8x128x4096) (k0_off1 L) S1x16x4096.size (k0_off1_inb L)
abbrev oRect (L : grid0.Coords) : Rect S4x128x4096 := Rect.unit (s := S4x128x4096) (k0_off2 L) S1x16x4096.size (k0_off2_inb L)
abbrev xRowK (L : grid0.Coords) : Memref sig .scVector .hbm S16x4096 .f32 :=
  ((xV).slice (xRect L) (fun _ => rfl)).squeeze S16x4096 squeezes_S1x16x4096_S16x4096
abbrev oRowK (L : grid0.Coords) : Memref sig .scVector .hbm S16x4096 .f32 :=
  ((oV).slice (oRect L) (fun _ => rfl)).squeeze S16x4096 squeezes_S1x16x4096_S16x4096
abbrev xSet (L : grid0.Coords) : Finset S8x128x4096.Idx := (xRowK L).view.set
abbrev oSet (L : grid0.Coords) : Finset S4x128x4096.Idx := (oRowK L).view.set

variable [FloatOps F]

/-- What the result array must hold at the end: the odd slabs of the input's launch contents. -/
def want (d : Dev nD) : Buf (Elt F) (oLoc d) := fun j => m (xLoc d) (Pick.up j)

abbrev xPiece (d : Dev nD) (L : grid0.Coords) : sProp 𝕄 := xLoc d ↦[xSet L]{fullShare} m (xLoc d)
abbrev oPiece (d : Dev nD) (L : grid0.Coords) (f : Buf (Elt F) (oLoc d)) : sProp 𝕄 := oLoc d ↦[oSet L]{fullShare} f

/-! ## The blocks' offsets, decided over the thirty-two workers

The body computes a worker's two offsets from its coordinates by the same integer chain. Three facts about them
are all the rest needs: how the read offset sits against the write offset; that two workers' write offsets are apart
in the slab or by sixteen rows; that every slab and every group of sixteen rows is some worker's. -/

def coordsV (c : Fin (grid0.bound 0)) (s : Fin (grid0.bound 1)) : grid0.Coords :=
  fun | 0 => c | 1 => s | ⟨_ + 2, h⟩ => absurd h (Nat.not_lt.2 (Nat.le_add_left _ _))

abbrev LT (c : Fin 2) (i : Fin 16) : grid0.Coords := coordsV c i

set_option Elab.async false

/-- The block read is in slab `2 l + 1` where the block written is in slab `l`, at the same rows and lanes. -/
theorem off_rel : ∀ L : grid0.Coords,
    k0_off1 L 0 = 2 * k0_off2 L 0 + 1 ∧ k0_off1 L 1 = k0_off2 L 1 ∧ k0_off1 L 2 = k0_off2 L 2 := by decide +kernel

/-- Two different workers write blocks in different slabs, or sixteen rows apart. -/
theorem off2_sep : ∀ c c' : Fin 2, ∀ i i' : Fin 16, (c ≠ c' ∨ i ≠ i') →
    ((k0_off2 (LT c i) 0 + 1 ≤ k0_off2 (LT c' i') 0 ∨ k0_off2 (LT c' i') 0 + 1 ≤ k0_off2 (LT c i) 0) ∨
     (k0_off2 (LT c i) 1 + 16 ≤ k0_off2 (LT c' i') 1 ∨ k0_off2 (LT c' i') 1 + 16 ≤ k0_off2 (LT c i) 1)) := by decide +kernel

/-- Every slab `l` and every group `k` of sixteen rows is written by some worker, from lane 0. -/
theorem off2_onto : ∀ l : Fin 4, ∀ k : Fin 8, ∃ c : Fin 2, ∃ i : Fin 16,
    k0_off2 (LT c i) 0 = l.val ∧ k0_off2 (LT c i) 1 = 16 * k.val ∧ k0_off2 (LT c i) 2 = 0 := by decide +kernel

omit [FloatOps F] in
theorem xSet_eq (L : grid0.Coords) : xSet L = (xRect L).set := by
  show (((View.whole (main_arg0_scv : Ref sig .scVector)).slice (xRect L)).reshape S16x4096 squeezes_S1x16x4096_S16x4096.numel_eq).set = _
  rw [View.set_reshape, View.set_slice]; exact Finset.map_refl
omit [FloatOps F] in
theorem oSet_eq (L : grid0.Coords) : oSet L = (oRect L).set := by
  show (((View.whole (main_v0_scv : Ref sig .scVector)).slice (oRect L)).reshape S16x4096 squeezes_S1x16x4096_S16x4096.numel_eq).set = _
  rw [View.set_reshape, View.set_slice]; exact Finset.map_refl

/-- Different workers write disjoint blocks of the result, -/
theorem oSet_disjoint (c c' : Fin 2) (i i' : Fin 16) (h : c ≠ c' ∨ i ≠ i') : Disjoint (oSet (LT c i)) (oSet (LT c' i')) := by
  rw [oSet_eq, oSet_eq]
  rcases off2_sep c c' i i' h with h0 | h1
  · exact Rect.unit_disjoint 0 h0
  · exact Rect.unit_disjoint 1 h1

/-- and read disjoint blocks of the input. -/
theorem xSet_disjoint (c c' : Fin 2) (i i' : Fin 16) (h : c ≠ c' ∨ i ≠ i') : Disjoint (xSet (LT c i)) (xSet (LT c' i')) := by
  rw [xSet_eq, xSet_eq]
  obtain ⟨a0, a1, -⟩ := off_rel (LT c i)
  obtain ⟨b0, b1, -⟩ := off_rel (LT c' i')
  rcases off2_sep c c' i i' h with h0 | h1
  · exact Rect.unit_disjoint 0 (show k0_off1 (LT c i) 0 + 1 ≤ k0_off1 (LT c' i') 0 ∨ k0_off1 (LT c' i') 0 + 1 ≤ k0_off1 (LT c i) 0 by omega)
  · exact Rect.unit_disjoint 1 (show k0_off1 (LT c i) 1 + 16 ≤ k0_off1 (LT c' i') 1 ∨ k0_off1 (LT c' i') 1 + 16 ≤ k0_off1 (LT c i) 1 by omega)

/-- What one core's sixteen workers read, and write. -/
def xCore (c : Fin 2) : Finset S8x128x4096.Idx := Finset.univ.biUnion fun i : Fin 16 => xSet (LT c i)
def oCore (c : Fin 2) : Finset S4x128x4096.Idx := Finset.univ.biUnion fun i : Fin 16 => oSet (LT c i)

theorem xTile_disjoint (c : Fin 2) : ∀ i ∈ (Finset.univ : Finset (Fin 16)), ∀ j ∈ (Finset.univ : Finset (Fin 16)), i ≠ j →
    Disjoint (xSet (LT c i)) (xSet (LT c j)) := fun i _ j _ h => xSet_disjoint c c i j (.inr h)
theorem oTile_disjoint (c : Fin 2) : ∀ i ∈ (Finset.univ : Finset (Fin 16)), ∀ j ∈ (Finset.univ : Finset (Fin 16)), i ≠ j →
    Disjoint (oSet (LT c i)) (oSet (LT c j)) := fun i _ j _ h => oSet_disjoint c c i j (.inr h)

theorem xCore_disjoint : ∀ c ∈ (Finset.univ : Finset (Fin 2)), ∀ c' ∈ (Finset.univ : Finset (Fin 2)), c ≠ c' → Disjoint (xCore c) (xCore c') := by
  intro c _ c' _ h
  unfold xCore
  rw [Finset.disjoint_biUnion_left]; intro i _
  rw [Finset.disjoint_biUnion_right]; intro i' _
  exact xSet_disjoint c c' i i' (.inl h)
theorem oCore_disjoint : ∀ c ∈ (Finset.univ : Finset (Fin 2)), ∀ c' ∈ (Finset.univ : Finset (Fin 2)), c ≠ c' → Disjoint (oCore c) (oCore c') := by
  intro c _ c' _ h
  unfold oCore
  rw [Finset.disjoint_biUnion_left]; intro i _
  rw [Finset.disjoint_biUnion_right]; intro i' _
  exact oSet_disjoint c c' i i' (.inl h)

/-- The blocks written tile the result: element `(l, r, h)` is in the block of the worker for slab `l`, rows `16 (r / 16) ..`. -/
theorem oCore_cover : (Finset.univ : Finset (Fin 2)).biUnion oCore = Finset.univ := by
  ext x
  simp only [Finset.mem_biUnion, Finset.mem_univ, true_and, iff_true, oCore]
  have x0 := Pick.out_lt0 x
  have x1 := Pick.out_lt1 x
  have x2 := Pick.out_lt2 x
  obtain ⟨c, i, h0, h1, h2⟩ := off2_onto ⟨(x 0).val, x0⟩ ⟨(x 1).val / 16, by omega⟩
  refine ⟨c, i, ?_⟩
  rw [oSet_eq, Rect.mem_set_unit]
  intro a
  match a with
  | ⟨0, _⟩ =>
    show k0_off2 (LT c i) 0 ≤ (x 0).val ∧ (x 0).val < k0_off2 (LT c i) 0 + 1
    simp only at h0; omega
  | ⟨1, _⟩ =>
    show k0_off2 (LT c i) 1 ≤ (x 1).val ∧ (x 1).val < k0_off2 (LT c i) 1 + 16
    simp only at h1; omega
  | ⟨2, _⟩ =>
    show k0_off2 (LT c i) 2 ≤ (x 2).val ∧ (x 2).val < k0_off2 (LT c i) 2 + 4096
    omega

/-! ## What the handshakes carry

The call hands each core the elements its sixteen workers read and write, each worker its own two blocks; back come the
same, the blocks of the result now at the odd slabs of the input. Nothing else is dealt: the copies' counters need no
ghost state of their own. -/

def P : (K (F := F)).Pay (nD := nD) (Val := Elt F) (Name := ℕ) (U := UU) where
  st := fun q d c => match q with
    | 0 => iprop((xLoc d ↦[xCore (Fin.cast nCore_zero c)]{fullShare} m (xLoc d)) ∗ oLoc d ↦[oCore (Fin.cast nCore_zero c)]{fullShare} m (oLoc d))
  dn := fun q d c => match q with
    | 0 => iprop((xLoc d ↦[xCore (Fin.cast nCore_zero c)]{fullShare} m (xLoc d)) ∗ oLoc d ↦[oCore (Fin.cast nCore_zero c)]{fullShare} want m d)
  go := fun q d c i => match q with
    | 0 => iprop(xPiece m d (LT (Fin.cast nCore_zero c) (Fin.cast nSub_zero i)) ∗ oPiece d (LT (Fin.cast nCore_zero c) (Fin.cast nSub_zero i)) (m (oLoc d)))
  td := fun q d c i => match q with
    | 0 => iprop(xPiece m d (LT (Fin.cast nCore_zero c) (Fin.cast nSub_zero i)) ∗ oPiece d (LT (Fin.cast nCore_zero c) (Fin.cast nSub_zero i)) (want m d))
  x := fun _ _ => iprop(emp)

instance P_storable : (P (F := F) m).IsStorable where
  st q d c := match q with
    | 0 => (inferInstance : BI.Storable (upEmb : UEmb _ 𝕄)
        iprop((xLoc d ↦[xCore (Fin.cast nCore_zero c)]{fullShare} m (xLoc d)) ∗ oLoc d ↦[oCore (Fin.cast nCore_zero c)]{fullShare} m (oLoc d)))
  dn q d c := match q with
    | 0 => (inferInstance : BI.Storable (upEmb : UEmb _ 𝕄)
        iprop((xLoc d ↦[xCore (Fin.cast nCore_zero c)]{fullShare} m (xLoc d)) ∗ oLoc d ↦[oCore (Fin.cast nCore_zero c)]{fullShare} want m d))
  go q d c i := match q with
    | 0 => (inferInstance : BI.Storable (upEmb : UEmb _ 𝕄)
        iprop(xPiece m d (LT (Fin.cast nCore_zero c) (Fin.cast nSub_zero i)) ∗ oPiece d (LT (Fin.cast nCore_zero c) (Fin.cast nSub_zero i)) (m (oLoc d))))
  td q d c i := match q with
    | 0 => (inferInstance : BI.Storable (upEmb : UEmb _ 𝕄)
        iprop(xPiece m d (LT (Fin.cast nCore_zero c) (Fin.cast nSub_zero i)) ∗ oPiece d (LT (Fin.cast nCore_zero c) (Fin.cast nSub_zero i)) (want m d)))

/-! ## A worker's body -/

section Tile

variable (d : Dev nD) (L : grid0.Coords)

abbrev cV (L : grid0.Coords) : Fin τ.nSC := (L 0).castLE hcore0
abbrev jV (L : grid0.Coords) : Fin τ.nSub := (L 1).castLE hsub0

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The worker's buffer is among the subcore's own: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_xRowK (f : Buf (Elt F) (xLoc d)) :
    ((xRowK L).view.loc (V d (cV L) (jV L)) ↦[(xRowK L).view.set]{fullShare} f : sProp 𝕄) = xLoc d ↦[xSet L]{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oSet L]{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

omit [FloatOps F] in
/-- Element `y` of the block read sits, in the input, where `up` sends element `y` of the block written: both are the
    block's offset plus `y`'s place in it, the squeezed leading axis holding the one coordinate 0. -/
theorem emb_up (y : S16x4096.Idx) : (xRowK L).view.emb y = Pick.up ((oRowK L).view.emb y) := by
  obtain ⟨z, hx, ho⟩ : ∃ z : S1x16x4096.Idx,
      (∀ a, (((xRowK L).view.emb y) a : Nat) = k0_off1 L a + 1 * (z a : Nat)) ∧
      (∀ a, (((oRowK L).view.emb y) a : Nat) = k0_off2 L a + 1 * (z a : Nat)) :=
    ⟨Shape.reshapeEquiv squeezes_S1x16x4096_S16x4096.numel_eq y, fun _ => rfl, fun _ => rfl⟩
  obtain ⟨r0, r1, r2⟩ := off_rel L
  have z0 : (z 0 : Nat) = 0 := Nat.lt_one_iff.mp (z 0).isLt
  have hx0 := hx 0; have hx1 := hx 1; have hx2 := hx 2
  have ho0 := ho 0; have ho1 := ho 1; have ho2 := ho 2
  refine Pick.eq_up ?_ ?_ ?_
  · omega
  · omega
  · omega

omit [FloatOps F] in
/-- What the second copy carries is the block of the input the first one fetched. -/
theorem payload_eq (fs : Buf (Elt F) ((V d (cV L) (jV L)).loc cc0_scratch0)) (w0 w1 : S16x4096.Idx → Elt F EltTy.f32)
    (h0 : w0 = (xRowK L).view.read (Elt F) (m (xLoc d)))
    (h1 : w1 = (sV).view.read (Elt F) (View.write (Elt F) (sV).view fs w0 Finset.univ)) :
    ∀ y, w1 y = m (xLoc d) ((xRowK L).view.emb y) := by
  subst h1; subst h0
  intro y
  rw [View.read_write_univ, View.read_apply]
  rfl

omit [FloatOps F] in
/-- An element of the result between the block's bounds is the block's element at "index minus offset". -/
theorem emb_of_bounds (x : S4x128x4096.Idx)
    (hx : ∀ a, k0_off2 L a ≤ (x a : Nat) ∧ (x a : Nat) < k0_off2 L a + S1x16x4096.size a) :
    ∃ y : S16x4096.Idx, (oRowK L).view.emb y = x := by
  let z : S1x16x4096.Idx := fun a => ⟨(x a : Nat) - k0_off2 L a, by have := hx a; omega⟩
  refine ⟨(Shape.reshapeEquiv squeezes_S1x16x4096_S16x4096.numel_eq).symm z, ?_⟩
  funext a
  apply Fin.ext
  show k0_off2 L a + 1 * ((Shape.reshapeEquiv squeezes_S1x16x4096_S16x4096.numel_eq
    ((Shape.reshapeEquiv squeezes_S1x16x4096_S16x4096.numel_eq).symm z)) a : Nat) = (x a : Nat)
  rw [Equiv.apply_symm_apply]
  show k0_off2 L a + 1 * ((x a : Nat) - k0_off2 L a) = (x a : Nat)
  have := hx a; omega

omit [FloatOps F] in
/-- So on the block it writes, the worker leaves the odd slabs of the input. -/
theorem block_eq (fo : Buf (Elt F) (oLoc d)) (w : S16x4096.Idx → Elt F EltTy.f32)
    (hw : ∀ y, w y = m (xLoc d) ((xRowK L).view.emb y)) (x : S4x128x4096.Idx)
    (hx : ∀ a, k0_off2 L a ≤ (x a : Nat) ∧ (x a : Nat) < k0_off2 L a + S1x16x4096.size a) :
    (oRowK L).view.writes (Elt F) fo [⟨Rect.whole S16x4096, w⟩] x = want m d x := by
  obtain ⟨y, rfl⟩ := emb_of_bounds L x hx
  -- the element under the one write reads back the payload,
  have h1 : (oRowK L).view.read (Elt F) ((oRowK L).view.writes (Elt F) fo [⟨Rect.whole S16x4096, w⟩]) y = w y := by
    have h := View.read_writes_cons_emb (oRowK L).view fo (Rect.whole S16x4096) w [] y
    rwa [Rect.emb_whole_apply] at h
  -- and reading through the view is the array at the element's place.
  generalize (oRowK L).view.writes (Elt F) fo [⟨Rect.whole S16x4096, w⟩] = g at h1 ⊢
  have h2 : g ((oRowK L).view.emb y) = (oRowK L).view.read (Elt F) g y :=
    ((View.read_apply (v := (oRowK L).view) g y).trans (cast_eq _ _)).symm
  exact h2.trans (h1.trans ((hw y).trans (congrArg (m (xLoc d)) (emb_up L y))))

omit [FloatOps F] in
/-- The block's elements are those between its bounds. -/
theorem bounds_of_mem (x : S4x128x4096.Idx) (hx : x ∈ oSet L) :
    ∀ a, k0_off2 L a ≤ (x a : Nat) ∧ (x a : Nat) < k0_off2 L a + S1x16x4096.size a := by
  rw [oSet_eq, Rect.mem_set_unit] at hx
  exact hx

set_option maxHeartbeats 4000000 in
/-- The body on worker `L` of device `d`: the fetch of its block of the input and its wait, the write-out to its block of
    the result and its wait. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xPiece m d L ∗ oPiece d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_body L xV (Memref.isWhole_whole _) oV (Memref.isWhole_whole _) sV (Memref.isWhole_whole _) cc0_scoped0 cc0_scoped1)
          fun _ => iprop((xPiece m d L ∗ oPiece d L (want m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_body_eq_skeleton]; unfold cc0__copy_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowK (F := F) d L _).symm) $$ Hx
  ihave Ho' := (Entails.of_eq (pts_oRowK (F := F) d L _).symm) $$ Ho
  ihave Hs' := (Entails.of_eq (pts_sV (F := F) d L _).symm) $$ Hs
  sl_exec
  sl_step
  isplitl [Hx' Ho']
  · isplitl [Hx']; · iapply (Entails.of_eq (pts_xRowK (F := F) d L _)); iexact Hx'
    iapply (Entails.of_eq ((pts_oRowK (F := F) d L _).trans
      (pointsTo_congr fun x hx => block_eq m d L _ _ (payload_eq m d L fs _ _ rfl rfl) x (bounds_of_mem L x hx)))); iexact Ho'
  isplitl [Hs' Hbufs]
  · isplitl [Hs']; · iexists _; iexact Hs'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-! ## The launch theorem's obligation for a worker -/

theorem defs₀_vector (c : Fin τ.nSC) (s : Fin τ.nSub) :
    defs₀ (F := F) (.scVector c s) 0 ()
      = SparseCore.onTile hcore0 hsub0 (fun c s => cc0__copy_body (coordsV c s)
          xV (Memref.isWhole_whole _) oV (Memref.isWhole_whole _) sV (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## A core's elements split among its workers, and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show iprop((xLoc d ↦[xCore (Fin.cast nCore_zero c)]{fullShare} m (xLoc d)) ∗ oLoc d ↦[oCore (Fin.cast nCore_zero c)]{fullShare} m (oLoc d))
    ⊢ |={Set.univ}=> iprop(
      (bigSep Finset.univ fun i : Fin ((K (F := F)).nSub 0) =>
        iprop(xPiece m d (LT (Fin.cast nCore_zero c) (Fin.cast nSub_zero i)) ∗ oPiece d (LT (Fin.cast nCore_zero c) (Fin.cast nSub_zero i)) (m (oLoc d))))
      ∗ ((bigSep Finset.univ fun i : Fin ((K (F := F)).nSub 0) =>
          iprop(xPiece m d (LT (Fin.cast nCore_zero c) (Fin.cast nSub_zero i)) ∗ oPiece d (LT (Fin.cast nCore_zero c) (Fin.cast nSub_zero i)) (want m d)))
          -∗ iprop((xLoc d ↦[xCore (Fin.cast nCore_zero c)]{fullShare} m (xLoc d)) ∗ oLoc d ↦[oCore (Fin.cast nCore_zero c)]{fullShare} want m d)))
  rw [bigSep_tasks (F := F) (fun i => iprop(xPiece m d (LT (Fin.cast nCore_zero c) i) ∗ oPiece d (LT (Fin.cast nCore_zero c) i) (m (oLoc d)))),
    bigSep_tasks (F := F) (fun i => iprop(xPiece m d (LT (Fin.cast nCore_zero c) i) ∗ oPiece d (LT (Fin.cast nCore_zero c) i) (want m d))),
    bigSep_sep', bigSep_sep']
  unfold xCore oCore xPiece oPiece
  rw [pointsTo_biUnion Finset.univ (ℓ := xLoc d) _ (xTile_disjoint (Fin.cast nCore_zero c)),
    pointsTo_biUnion Finset.univ (ℓ := oLoc d) (f := m (oLoc d)) _ (oTile_disjoint (Fin.cast nCore_zero c)),
    pointsTo_biUnion Finset.univ (ℓ := oLoc d) (f := want m d) _ (oTile_disjoint (Fin.cast nCore_zero c))]
  iintro ⟨Hx, Ho⟩; imodintro
  isplitl [Hx Ho]
  · isplitl [Hx]; · iexact Hx
    iexact Ho
  iintro ⟨Hx, Ho⟩
  isplitl [Hx]; · iexact Hx
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The input's elements no worker reads (the even slabs): they never leave the TensorCore's hands. -/
def xRest : Finset S8x128x4096.Idx := Finset.univ \ (Finset.univ : Finset (Fin 2)).biUnion xCore

omit [FloatOps F] in
/-- The whole input is the cores' parts and the rest; -/
theorem xWhole (d : Dev nD) (f : Buf (Elt F) (xLoc d)) :
    (xLoc d ↦{fullShare} f : sProp 𝕄) ⊣⊢ iprop((bigSep Finset.univ fun c : Fin 2 => xLoc d ↦[xCore c]{fullShare} f) ∗ xLoc d ↦[xRest]{fullShare} f) := by
  rw [← pointsTo_biUnion Finset.univ (ℓ := xLoc d) xCore xCore_disjoint]
  exact pointsTo_split_subset (Finset.subset_univ _)

omit [FloatOps F] in
/-- the whole result is the cores' parts. -/
theorem oWhole (d : Dev nD) (f : Buf (Elt F) (oLoc d)) :
    (oLoc d ↦{fullShare} f : sProp 𝕄) = bigSep Finset.univ fun c : Fin 2 => oLoc d ↦[oCore c]{fullShare} f := by
  rw [← pointsTo_biUnion Finset.univ (ℓ := oLoc d) oCore oCore_disjoint, oCore_cover]

theorem st0_eq (d : Dev nD) : (bigSep Finset.univ fun c : Fin ((K (F := F)).nCore 0) => (P m).st 0 d c)
    = iprop((bigSep Finset.univ fun c : Fin 2 => xLoc d ↦[xCore c]{fullShare} m (xLoc d)) ∗ bigSep Finset.univ fun c : Fin 2 => oLoc d ↦[oCore c]{fullShare} m (oLoc d)) := by
  rw [← bigSep_sep']
  exact bigSep_cores (F := F) (fun c => iprop((xLoc d ↦[xCore c]{fullShare} m (xLoc d)) ∗ oLoc d ↦[oCore c]{fullShare} m (oLoc d)))
theorem dn0_eq (d : Dev nD) : (bigSep Finset.univ fun c : Fin ((K (F := F)).nCore 0) => (P m).dn 0 d c)
    = iprop((bigSep Finset.univ fun c : Fin 2 => xLoc d ↦[xCore c]{fullShare} m (xLoc d)) ∗ bigSep Finset.univ fun c : Fin 2 => oLoc d ↦[oCore c]{fullShare} want m d) := by
  rw [← bigSep_sep']
  exact bigSep_cores (F := F) (fun c => iprop((xLoc d ↦[xCore c]{fullShare} m (xLoc d)) ∗ oLoc d ↦[oCore c]{fullShare} want m d))

/-- What @main leaves the claim: the input at its launch contents, the result at the odd slabs of it. -/
abbrev FIN (d : Dev nD) : sProp 𝕄 := iprop((xLoc d ↦{fullShare} m (xLoc d)) ∗ oLoc d ↦{fullShare} want m d)

/-- @main on device `d`'s TensorCore: the one call, the two arrays cut into the cores' parts and joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  ihave Hx2 := (xWhole (F := F) d _).1 $$ Hx
  icases Hx2 with ⟨Hxc, Hxr⟩
  ihave Ho2 := (Entails.of_eq (oWhole (F := F) d _)) $$ Ho
  iapply ((K (F := F)).wp_run (D (F := F)) 𝒱 (EH := EH) (P := P m) κ d 0) $$ [Hst Hxc Ho2 Hxr]
  isplitr; · iexact Hctx
  isplitl [Hst]; · iexact Hst
  isplitl [Hxc Ho2]
  · rw [st0_eq]
    isplitl [Hxc]; · iexact Hxc
    iexact Ho2
  iintro ⟨Hst, Hdn⟩
  ihave Hdn' := (Entails.of_eq (dn0_eq m d)) $$ Hdn
  icases Hdn' with ⟨Hxc, Hoc⟩
  ihave Hx := (xWhole (F := F) d _).2 $$ [Hxc Hxr]
  · isplitl [Hxc]; · iexact Hxc
    iexact Hxr
  ihave Ho := (Entails.of_eq (oWhole (F := F) d _).symm) $$ Hoc
  imodintro
  isplitl [Hst]; · iexact Hst
  isplitl [Hx]; · iexact Hx
  iexact Ho

def fq (d : Dev nD) (s' : Phys nD τ sig (Elt F)) : Prop := s'.mem.mem (xLoc d) = m (xLoc d) ∧ s'.mem.mem (oLoc d) = want m d

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := want m d)) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (xLoc c) = m (xLoc c) ∧ r.2.mem (oLoc c) = want m c

/-- From any memory with zero counters, at any float values: every weakly fair execution of the device's threads
    terminates, nothing faulting, with the input unchanged and the result at the odd slabs of the input. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealRun

end
-- ==== Proof.RefRun.lean ====
/-
  The reference's run, and what it leaves in its result array.

  The reference takes slabs 1, 3, 5, 7 of the input. As a program it is a short straight line: the table of the four
  slab numbers; each number below zero moved up by 8 (none is); a test that each lies between 0 and 7 (each does); the
  gather of the four slabs, each whole (128 rows of 4096 lanes); and a select that keeps a gathered slab where its
  number passed the test and puts a filler elsewhere. Since every number passes, the filler is never chosen, and
  since each number `2 l + 1` is at most 7 the gather's clamping leaves it alone: the result at `(l, r, h)` is the
  input at `(2 l + 1, r, h)`, which is `Pick.pick` of the input.
-/
import Idealize.ShloMosaic.Lib.StableHlo.Run
import Idealize.ShloMosaic.Lib.ValueIdx
import proofs.«216419_g87780541595922_cont_sun_m_949_14_alg».proof.Proof.Gen.ReferenceIdeal
import proofs.«216419_g87780541595922_cont_sun_m_949_14_alg».proof.Proof.Pick

noncomputable section

namespace Cert.Proof.RefRun

open Cert.ReferenceIdeal Cert.ReferenceIdeal.Gen Idealize.ShloMosaic Idealize.ShloMosaic.TcCoe Idealize.SL.Sem Idealize.ShloMosaic.StableHlo
open Idealize.ShloMosaic.ValueIdx
open Cert.Proof

/-! ## The slab numbers and their test: four words, computed -/

/-- The table `[1, 3, 5, 7]`. -/
abbrev tbl : IVec S4 32 := fun i => lit0 (S4.rowMajor i)

/-- The numbers after "below zero, add 8", as a column. -/
def idxCol : IVec S4x1 32 :=
  broadcastInDim S4x1 ![0] bcast_S4_S4x1_0
    (select (cmpi .slt tbl (broadcastInDim S4 ![] bcast_S_S4 (constantI S_ 32 0#32)))
      (addi tbl (broadcastInDim S4 ![] bcast_S_S4 (constantI S_ 32 8#32))) tbl)

/-- The test "between 0 and 7", one bit per number. -/
def inRange : IVec S4 1 :=
  Host.reduce IntOp.andi
    (andi (cmpi .sge idxCol (broadcastInDim S4x1 ![] bcast_S_S4x1 (constantI S_ 32 0#32)))
      (cmpi .sle idxCol (broadcastInDim S4x1 ![0, 1] bcast_S1x1_S4x1_0_1 (broadcastInDim S1x1 ![1] bcast_S1_S1x1_1 (constantI S1 32 7#32)))))
    (constantI S_ 1 1#1) reducesTo_S4x1_S4_d1 h_S_

/-- Number `l` is `2 l + 1`. -/
theorem idxCol_apply : ∀ i : S4x1.Idx, idxCol i = BitVec.ofNat 32 (2 * (i 0).val + 1) := by decide

/-- Every number passes the test. -/
theorem inRange_apply : ∀ j : S4.Idx, inRange j = 1#1 := by decide

/-! ## The gather of whole slabs, read at an index -/

/-- With start indices `2 l + 1` (all at most 7, so unclamped), the gather's element `(l, r, h)` is the operand's
    `(2 l + 1, r, h)`: the slab is named by the start index, row and lane pass through. -/
theorem gather_pick {α : Type} (x : S8x128x4096.Idx → α) (idx : IVec S4x1 32)
    (hidx : ∀ i : S4x1.Idx, idx i = BitVec.ofNat 32 (2 * (i 0).val + 1)) (j : S4x128x4096.Idx) :
    Host.gather gather_S8x128x4096_S4x1_S4x128x4096_12_0_n_n_0_1_11284096 x idx j = x (Pick.up j) := by
  unfold Host.gather
  congr 1
  have j0 := Pick.out_lt0 j
  have hb : ∀ n < 8, (BitVec.ofNat 32 n).toInt.toNat = n := by decide
  refine Pick.eq_up ?_ ?_ ?_
  · show GatherDims.start gather_S8x128x4096_S4x1_S4x128x4096_12_0_n_n_0_1_11284096 j idx 0 + GatherDims.batchCoord gather_S8x128x4096_S4x1_S4x128x4096_12_0_n_n_0_1_11284096 j 0 + GatherDims.offCoord gather_S8x128x4096_S4x1_S4x128x4096_12_0_n_n_0_1_11284096 j 0 = 2 * (j 0).val + 1
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (gather_S8x128x4096_S4x1_S4x128x4096_12_0_n_n_0_1_11284096).startIndexMap from List.mem_singleton.mpr rfl), hidx]
    have hs : ∀ c, ((GatherDims.siIdx gather_S8x128x4096_S4x1_S4x128x4096_12_0_n_n_0_1_11284096 j c) 0).val = (j 0).val := fun _ => rfl
    rw [hs, hb _ (by omega)]
    show min (2 * (j 0).val + 1) (8 - 1) + 0 + 0 = _
    omega
  · show GatherDims.start gather_S8x128x4096_S4x1_S4x128x4096_12_0_n_n_0_1_11284096 j idx 1 + GatherDims.batchCoord gather_S8x128x4096_S4x1_S4x128x4096_12_0_n_n_0_1_11284096 j 1 + GatherDims.offCoord gather_S8x128x4096_S4x1_S4x128x4096_12_0_n_n_0_1_11284096 j 1 = (j 1).val
    rw [GatherDims.batchCoord_eq_zero _ _ _ List.not_mem_nil]
    unfold GatherDims.start
    rw [dif_neg (show (1 : Fin 3) ∉ (gather_S8x128x4096_S4x1_S4x128x4096_12_0_n_n_0_1_11284096).startIndexMap by decide)]
    have ho : GatherDims.offCoord gather_S8x128x4096_S4x1_S4x128x4096_12_0_n_n_0_1_11284096 j 1 = (j 1).val := rfl
    omega
  · show GatherDims.start gather_S8x128x4096_S4x1_S4x128x4096_12_0_n_n_0_1_11284096 j idx 2 + GatherDims.batchCoord gather_S8x128x4096_S4x1_S4x128x4096_12_0_n_n_0_1_11284096 j 2 + GatherDims.offCoord gather_S8x128x4096_S4x1_S4x128x4096_12_0_n_n_0_1_11284096 j 2 = (j 2).val
    rw [GatherDims.batchCoord_eq_zero _ _ _ List.not_mem_nil]
    unfold GatherDims.start
    rw [dif_neg (show (2 : Fin 3) ∉ (gather_S8x128x4096_S4x1_S4x128x4096_12_0_n_n_0_1_11284096).startIndexMap by decide)]
    have ho : GatherDims.offCoord gather_S8x128x4096_S4x1_S4x128x4096_12_0_n_n_0_1_11284096 j 2 = (j 2).val := rfl
    omega

/-! ## The reference's result as one term, and that it is the odd slabs -/

variable {F : FTy → Type} [FloatOps F]

/-- What the straight line computes from the input `x`: the gathered slabs where the test passed, the filler elsewhere. -/
def refOut (x : FVec F S8x128x4096 .f32) : FVec F S4x128x4096 .f32 :=
  select (broadcastInDim S4x128x4096 ![0] bcast_S4_S4x128x4096_0 inRange)
    (Host.gather gather_S8x128x4096_S4x1_S4x128x4096_12_0_n_n_0_1_11284096 x idxCol)
    (broadcastInDim S4x128x4096 ![] bcast_S_S4x128x4096 (constant S_ .f32 0x7FC00000#32))

/-- The test passes everywhere, so the select keeps the gather, which reads the odd slabs. -/
theorem refOut_eq (x : FVec F S8x128x4096 .f32) : refOut x = Pick.pick x := by
  funext j
  show Scalar.select (broadcastInDim S4x128x4096 ![0] bcast_S4_S4x128x4096_0 inRange j) (Host.gather gather_S8x128x4096_S4x1_S4x128x4096_12_0_n_n_0_1_11284096 x idxCol j) _ = x (Pick.up j)
  have hb : broadcastInDim S4x128x4096 ![0] bcast_S4_S4x128x4096_0 inRange j = 1#1 := inRange_apply _
  rw [hb, gather_pick x idxCol idxCol_apply j]
  exact if_pos rfl

/-! ## The run -/

/-- @main's twenty-four operations in order, the two outlined functions unfolded where they are called. -/
abbrev ops : List (HloOp τ sig (Elt F)) :=
  [ nullary main_c (fun i => lit0 (S4.rowMajor i)),
    TRef.nullary main_call0.c (constantI S_ 32 0#32),
    TRef.unary main_call0.c main_call0.v0 (broadcastInDim S4 ![] bcast_S_S4),
    TRef.binary (.of main_c) main_call0.v0 main_call0.v1 (cmpi .slt),
    TRef.nullary main_call0.c_0 (constantI S_ 32 8#32),
    TRef.unary main_call0.c_0 main_call0.v2 (broadcastInDim S4 ![] bcast_S_S4),
    TRef.binary (.of main_c) main_call0.v2 main_call0.v3 addi,
    TRef.ternary main_call0.v1 main_call0.v3 (.of main_c) main_call0.call0.v0 select,
    TRef.unary main_call0.call0.v0 main_call0.v5 (broadcastInDim S4x1 ![0] bcast_S4_S4x1_0),
    TRef.nullary main_call0.c_1 (constantI S1 32 7#32),
    TRef.nullary main_call0.c_2 (constantI S_ 32 0#32),
    TRef.unary main_call0.c_2 main_call0.v6 (broadcastInDim S4x1 ![] bcast_S_S4x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4x1 ![0, 1] bcast_S1x1_S4x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x1_S4_d1 h_S_),
    TRef.binary (.of main_arg0) main_call0.v5 main_call0.v13 (fun x i => Host.gather gather_S8x128x4096_S4x1_S4x128x4096_12_0_n_n_0_1_11284096 x i),
    TRef.unary main_call0.v12 main_call0.v14 (broadcastInDim S4x128x4096 ![0] bcast_S4_S4x128x4096_0),
    TRef.nullary main_call0.cst (constant S_ .f32 0x7FC00000#32),
    TRef.unary main_call0.cst main_call0.v15 (broadcastInDim S4x128x4096 ![] bcast_S_S4x128x4096),
    TRef.ternary main_call0.v14 main_call0.v13 main_call0.v15 main_call0.v16 select ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 2000000 in
/-- The operations' fold at the result buffer is `refOut` of the argument: each operation's result read at its own
    buffer, every other buffer passed over. -/
theorem out_eq (V : Valuation τ sig (Elt F)) :
    after ops V (main_v0 : DevRef τ sig) = refOut (V (main_arg0 : DevRef τ sig)) := by
  after_results
  rfl

set_option maxHeartbeats 2000000 in
/-- No operation writes the argument. -/
theorem arg0_eq (V : Valuation τ sig (Elt F)) :
    after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- On every device, for any float values, from any memory with zero counters: every weakly fair execution of @main
    terminates with the result at the odd slabs of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = Pick.pick (m ((c.tc : Thread nD τ).loc main_arg0))
      ∧ r.2.mem ((c.tc : Thread nD τ).loc main_arg0) = m ((c.tc : Thread nD τ).loc main_arg0) :=
  (θ_run defs _ _).mono (fun _ h c => ⟨(h c main_v0).trans ((out_eq _).trans (refOut_eq _)), (h c main_arg0).trans (arg0_eq _)⟩)
    (run_seq scopedRefs_eq scopedSems_eq defs main (fun _ => ops) main_eq (fun _ => ops_sub) m ρ)

end Cert.Proof.RefRun

end
-- ==== Proof.lean ====
/-
  The claim: the copy kernel and the reference compute the same array, and each runs to the end leaving its input
  unchanged.

  Both programs take an input of 8 slabs (each 128 rows of 4096 lanes) and produce 4 slabs: slab `l` of the result
  is slab `2 l + 1` of the input, so the result at `(l, r, h)` is the input at `(2 l + 1, r, h)` (`Pick.pick`).

  The kernel does it with thirty-two workers, each copying one block of sixteen rows through a buffer of its own
  (KernelRun, KernelIdealRun: the same text at the two readings of the float values; the blocks written are pairwise
  disjoint and tile the result, the blocks read are never written). The reference does it with one gather whose four
  slab numbers 1, 3, 5, 7 all pass its range test, so its filler is never chosen (RefRun).

  No arithmetic is done on the elements by either program, so nothing here depends on the inputs being finite: the
  precondition is not used, and the equality holds element by element on the extended reals as it does on words.
  The idealized kernel is the kernel's own text (no operation was rewritten), so there is nothing to preserve.
-/
import proofs.«216419_g87780541595922_cont_sun_m_949_14_alg».proof.Defs
import proofs.«216419_g87780541595922_cont_sun_m_949_14_alg».proof.Proof.Gen.Kernel
import proofs.«216419_g87780541595922_cont_sun_m_949_14_alg».proof.Proof.Gen.Kernel.Skeleton
import proofs.«216419_g87780541595922_cont_sun_m_949_14_alg».proof.Proof.Gen.KernelIdeal
import proofs.«216419_g87780541595922_cont_sun_m_949_14_alg».proof.Proof.Gen.KernelIdeal.Skeleton
import proofs.«216419_g87780541595922_cont_sun_m_949_14_alg».proof.Proof.Gen.ReferenceIdeal
import proofs.«216419_g87780541595922_cont_sun_m_949_14_alg».proof.Proof.Gen.Pre_finite_inputs
import proofs.«216419_g87780541595922_cont_sun_m_949_14_alg».proof.Proof.KernelRun
import proofs.«216419_g87780541595922_cont_sun_m_949_14_alg».proof.Proof.KernelIdealRun
import proofs.«216419_g87780541595922_cont_sun_m_949_14_alg».proof.Proof.RefRun
import Idealize.ShloMosaic.Adequacy
import Idealize.ShloMosaic.Init

noncomputable section

namespace Cert.Proof

open Idealize.ShloMosaic Idealize.SL.Sem

/-- The kernel, its float values read as words: it runs, and the input is unchanged (the run, the result's value dropped). -/
theorem frame_k : Cert.frame_Kernel := fun m ρ _ =>
  (θ_run Cert.Kernel.defs _ _).mono (fun _ h c => (h c).1) (KernelRun.run_main (F := Bits) m ρ)

/-- The same text with float values read as extended reals. -/
theorem frame_ki : Cert.frame_KernelIdeal := fun m ρ _ =>
  (θ_run Cert.KernelIdeal.defs _ _).mono (fun _ h c => (h c).1) (KernelIdealRun.run_main (F := Ideal) m ρ)

/-- The reference runs, and its input is unchanged. -/
theorem frame_ri : Cert.frame_ReferenceIdeal := fun m ρ _ =>
  (θ_run Cert.ReferenceIdeal.defs _ _).mono (fun _ h c => (h c).2) (RefRun.run (F := Ideal) m ρ)

/-- No operation of the kernel was rewritten for the reading over the extended reals. -/
theorem preserves : Cert.preserves_Kernel_KernelIdeal := trivial

/-- From memories that agree on the input, both programs end with the odd slabs of that input in their result. -/
theorem algebraic : Cert.algebraic_KernelIdeal_ReferenceIdeal := by
  intro m ρ m' ρ' _ hagree
  refine ⟨fun c => Pick.pick (m ((c.tc : Thread Cert.KernelIdeal.nD Cert.KernelIdeal.τ).loc Cert.KernelIdeal.main_arg0)), ?_, ?_⟩
  · exact (θ_run Cert.KernelIdeal.defs _ _).mono (fun _ h c => ⟨(h c).2, (h c).1⟩) (KernelIdealRun.run_main (F := Ideal) m ρ)
  · refine (θ_run Cert.ReferenceIdeal.defs _ _).mono (fun _ h c => ⟨(h c).1.trans ?_, (h c).2⟩) (RefRun.run (F := Ideal) m' ρ')
    rw [hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
